-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S128x256 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 61
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S100000x128, .f32⟩
  | .hbm, ⟨40, _⟩ => ⟨S600000x1, .i32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S128x128, .f32⟩
  | .hbm, ⟨45, _⟩ => ⟨S128x128, .bf16⟩
  | .hbm, ⟨46, _⟩ => ⟨S128x128, .f32⟩
  | .hbm, ⟨47, _⟩ => ⟨S128x128, .f32⟩
  | .hbm, ⟨48, _⟩ => ⟨S128x128, .bf16⟩
  | .hbm, ⟨49, _⟩ => ⟨S128x128, .f32⟩
  | .hbm, ⟨50, _⟩ => ⟨S128x128, .bf16⟩
  | .hbm, ⟨51, _⟩ => ⟨S128x128, .f32⟩
  | .hbm, ⟨52, _⟩ => ⟨S128x128, .bf16⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S128x128, .bf16⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S100000x128.size a
  hwx0_13 : ∀ i : grid0.Coords, EltTy.bits .f32 = 32 ∨ (Rect.block (s := S100000x128) S4000x128.size (cc0_transform_13 i) (hinb0_13 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v41) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v42) S4000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x256 : Shape := ⟨2, ![100000, 256]⟩
abbrev S256x128 : Shape := ⟨2, ![256, 128]⟩
abbrev S1x128 : Shape := ⟨2, ![1, 128]⟩
abbrev S100000 : Shape := ⟨1, ![100000]⟩
abbrev S100000x1 : Shape := ⟨2, ![100000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S100000x128, .f32⟩
  | .hbm, ⟨40, _⟩ => ⟨S600000x1, .i32⟩
  | .hbm, ⟨41, _⟩ => ⟨S100000x128, .f32⟩
  | .hbm, ⟨42, _⟩ => ⟨S100000x128, .f32⟩
  | .hbm, ⟨43, _⟩ => ⟨S100000x256, .f32⟩
  | .hbm, ⟨44, _⟩ => ⟨S256x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S100000x1, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000, .f32⟩
  | .hbm, ⟨86, _⟩ => ⟨S100000x1, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x1, .f32⟩
  | .hbm, ⟨103, _⟩ => ⟨S100000x1, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S100000x128, .f32⟩
  | .hbm, ⟨114, _⟩ => ⟨S128x128, .f32⟩
  | .hbm, ⟨115, _⟩ => ⟨S100000x128, .f32⟩
  | .hbm, ⟨116, _⟩ => ⟨S1x128, .f32⟩
  | .hbm, ⟨117, _⟩ => ⟨S100000x128, .f32⟩
  | .hbm, ⟨118, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Entry.lean ====
/-
  What the kernel's region finds in the arrays the host prepared before it: the aggregated neighbour features (the two
  scatter-additions of gathered rows, added), the four weight blocks (a column half of the first weight matrix, or a
  whole matrix, transposed; the change of format is the identity on the extended reals) and the seven bias, scale
  and shift vectors laid out as one-row matrices. Each is read off the host operations that precede the region.
-/
import proofs.«154128_j75617194213894_1_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The endpoints of the edges, one vector per row of the edge list. -/
def ends (e : IVec S2x600000 32) (k : Nat) (h : S2x600000.Slices ![k, 0] S1x600000) : IVec S600000 32 :=
  shapeCast S600000 (extractStridedSlice S1x600000 ![k, 0] e h) shapeCasts_S1x600000_S600000

/-- Rows of x gathered at one endpoint of every edge (a negative index counted from the end, as jnp indexing does) and
    added into the row of the other endpoint, from zero. -/
def pass (x : FVec Ideal S100000x128 .f32) (src dst : IVec S600000 32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- The aggregated neighbour features: both directions of every edge. -/
def aggregate (x : FVec Ideal S100000x128 .f32) (e : IVec S2x600000 32) : FVec Ideal S100000x128 .f32 :=
  addf (pass x (ends e 0 slices_S2x600000_S1x600000_0_0) (ends e 1 slices_S2x600000_S1x600000_1_0))
    (pass x (ends e 1 slices_S2x600000_S1x600000_1_0) (ends e 0 slices_S2x600000_S1x600000_0_0))

theorem V_v24 (c : Dev nD) : (V m c main_v24 : S100000x128.Idx → EReal) = aggregate (m ((c : Thread nD τ).loc main_arg0)) (m ((c : Thread nD τ).loc main_arg1)) := by
  dsimp only [V, hostOps0]
  after_results_simp <;> rfl

theorem V_v27 (c : Dev nD) : (V m c main_v27 : S128x128.Idx → EReal) = (truncf .bf16 (transpose S128x128 [1, 0] (extractStridedSlice S128x128 ![0, 0] (m ((c : Thread nD τ).loc main_arg2)) slices_S128x256_S128x128_0_0) transposes_S128x128_S128x128_1_0) bitsLt_bf16_f32 : FVec Ideal S128x128 .bf16) := by
  dsimp only [V, hostOps0]
  after_results_simp <;> rfl

theorem V_v30 (c : Dev nD) : (V m c main_v30 : S128x128.Idx → EReal) = (truncf .bf16 (transpose S128x128 [1, 0] (extractStridedSlice S128x128 ![0, 128] (m ((c : Thread nD τ).loc main_arg2)) slices_S128x256_S128x128_0_128) transposes_S128x128_S128x128_1_0) bitsLt_bf16_f32 : FVec Ideal S128x128 .bf16) := by
  dsimp only [V, hostOps0]
  after_results_simp <;> rfl

theorem V_v32 (c : Dev nD) : (V m c main_v32 : S128x128.Idx → EReal) = (truncf .bf16 (transpose S128x128 [1, 0] (m ((c : Thread nD τ).loc main_arg6)) transposes_S128x128_S128x128_1_0) bitsLt_bf16_f32 : FVec Ideal S128x128 .bf16) := by
  dsimp only [V, hostOps0]
  after_results_simp <;> rfl

theorem V_v34 (c : Dev nD) : (V m c main_v34 : S128x128.Idx → EReal) = (truncf .bf16 (transpose S128x128 [1, 0] (m ((c : Thread nD τ).loc main_arg10)) transposes_S128x128_S128x128_1_0) bitsLt_bf16_f32 : FVec Ideal S128x128 .bf16) := by
  dsimp only [V, hostOps0]
  after_results_simp <;> rfl

theorem V_v35 (c : Dev nD) : (V m c main_v35 : S1x128.Idx → EReal) = shapeCast S1x128 (m ((c : Thread nD τ).loc main_arg3)) shapeCasts_S128_S1x128 := by
  dsimp only [V, hostOps0]
  after_results_simp <;> rfl

theorem V_v36 (c : Dev nD) : (V m c main_v36 : S1x128.Idx → EReal) = shapeCast S1x128 (m ((c : Thread nD τ).loc main_arg4)) shapeCasts_S128_S1x128 := by
  dsimp only [V, hostOps0]
  after_results_simp <;> rfl

theorem V_v37 (c : Dev nD) : (V m c main_v37 : S1x128.Idx → EReal) = shapeCast S1x128 (m ((c : Thread nD τ).loc main_arg5)) shapeCasts_S128_S1x128 := by
  dsimp only [V, hostOps0]
  after_results_simp <;> rfl

theorem V_v38 (c : Dev nD) : (V m c main_v38 : S1x128.Idx → EReal) = shapeCast S1x128 (m ((c : Thread nD τ).loc main_arg7)) shapeCasts_S128_S1x128 := by
  dsimp only [V, hostOps0]
  after_results_simp <;> rfl

theorem V_v39 (c : Dev nD) : (V m c main_v39 : S1x128.Idx → EReal) = shapeCast S1x128 (m ((c : Thread nD τ).loc main_arg8)) shapeCasts_S128_S1x128 := by
  dsimp only [V, hostOps0]
  after_results_simp <;> rfl

theorem V_v40 (c : Dev nD) : (V m c main_v40 : S1x128.Idx → EReal) = shapeCast S1x128 (m ((c : Thread nD τ).loc main_arg9)) shapeCasts_S128_S1x128 := by
  dsimp only [V, hostOps0]
  after_results_simp <;> rfl

theorem V_v41 (c : Dev nD) : (V m c main_v41 : S1x128.Idx → EReal) = shapeCast S1x128 (m ((c : Thread nD τ).loc main_arg11)) shapeCasts_S128_S1x128 := by
  dsimp only [V, hostOps0]
  after_results_simp <;> rfl

end Cert.KernelIdeal.Entry

end
-- ==== Proof.Spec.lean ====
/-
  The mathematics both programs compute, one node at a time. A node has a row of 128 aggregated neighbour features
  and a row of 128 features of its own. The first layer is an affine map of the two rows laid end to end (a weight
  matrix with 256 columns), the other two are affine maps of one row; after each of the first two layers the row is
  normalised (its mean removed, divided by the root of its variance plus a small constant), scaled, shifted and
  passed through tanh. Everything is on the extended reals, with the exact operations.

  Also here: a sum over 256 columns is the sum over the first 128 plus the sum over the last 128. This holds in any
  commutative additive monoid, so no entry needs to be finite; it is the one law that joins the two programs: one
  multiplies the joined row by the whole matrix, the other multiplies each half by its half of the matrix and adds.
-/
import Idealize.ShloMosaic.PureOps.Ideal
import Idealize.ShloMosaic.Lib.ValueIdx

noncomputable section

namespace Cert.Mlp

open Idealize.ShloMosaic Idealize.ShloMosaic.ValueIdx
open scoped BigOperators

/-- A row of 128 features. -/
abbrev Row := Fin 128 → EReal

/-- The number of features, as the programs write it (the float 128). -/
def width : EReal := Ideal.ofBits .f32 0x43000000#32
/-- The small constant added to the variance (the float nearest to 1e-5, the same word in both programs). -/
def eps : EReal := Ideal.ofBits .f32 0x3727C5AC#32

/-- The mean of a row. -/
def mean (h : Row) : EReal := Ideal.div (∑ j, h j) width
/-- The row with its mean removed. -/
def centre (h : Row) : Row := fun j => h j - mean h
/-- The mean of the squared deviations. -/
def variance (h : Row) : EReal := Ideal.div (∑ j, centre h j * centre h j) width
/-- The normalised row, scaled entry by entry by g. -/
def norm (h g : Row) : Row := fun j => centre h j * Ideal.rsqrt (variance h + eps) * g j
/-- Shift by be, then tanh. -/
def act (h be : Row) : Row := fun j => Ideal.tanh (h j + be j)
/-- An affine map: entry j is the inner product of the row with row j of W, plus b j. -/
def lin (h : Row) (W : Fin 128 → Fin 128 → EReal) (b : Row) : Row := fun j => (∑ k, h k * W j k) + b j
/-- The first affine map, its weight matrix given as two halves: the aggregated row meets Wa, the node's own row Wb. -/
def lin0 (mr xr : Row) (Wa Wb : Fin 128 → Fin 128 → EReal) (b : Row) : Row :=
  fun j => ((∑ k, mr k * Wa j k) + ∑ k, xr k * Wb j k) + b j

/-- The whole network on one node. -/
def node (mr xr : Row) (Wa Wb : Fin 128 → Fin 128 → EReal) (b0 g0 be0 : Row) (W1 : Fin 128 → Fin 128 → EReal) (b1 g1 be1 : Row)
    (W2 : Fin 128 → Fin 128 → EReal) (b2 : Row) : Row :=
  lin (act (norm (lin (act (norm (lin0 mr xr Wa Wb b0) g0) be0) W1 b1) g1) be1) W2 b2

/-- A sum over 256 columns is the sum over the first 128 plus the sum over the last 128. -/
theorem sum_halves {M : Type*} [AddCommMonoid M] (f : Fin 256 → M) :
    ∑ c : Fin 256, f c = (∑ k : Fin 128, f ⟨k.val, by omega⟩) + ∑ k : Fin 128, f ⟨128 + k.val, by omega⟩ :=
  Fin.sum_univ_add (a := 128) (b := 128) f

/-- The result array: row n of the 100000 x 128 result is the network on row n of the aggregated features M and row n
    of the node features X; the first weight matrix has 256 columns, the first 128 for M and the last 128 for X. -/
def result (M X : (⟨2, ![100000, 128]⟩ : Shape).Idx → EReal) (W0 : (⟨2, ![128, 256]⟩ : Shape).Idx → EReal)
    (b0 g0 be0 : (⟨1, ![128]⟩ : Shape).Idx → EReal) (W1 : (⟨2, ![128, 128]⟩ : Shape).Idx → EReal)
    (b1 g1 be1 : (⟨1, ![128]⟩ : Shape).Idx → EReal) (W2 : (⟨2, ![128, 128]⟩ : Shape).Idx → EReal)
    (b2 : (⟨1, ![128]⟩ : Shape).Idx → EReal) : (⟨2, ![100000, 128]⟩ : Shape).Idx → EReal :=
  fun i => node (fun k => M (ix2 (i 0) k)) (fun k => X (ix2 (i 0) k))
    (fun j k => W0 (ix2 j (⟨k.val, by omega⟩ : Fin 256))) (fun j k => W0 (ix2 j (⟨128 + k.val, by omega⟩ : Fin 256))) (fun j => b0 (ix1 j))
    (fun j => g0 (ix1 j)) (fun j => be0 (ix1 j)) (fun j k => W1 (ix2 j k)) (fun j => b1 (ix1 j)) (fun j => g1 (ix1 j))
    (fun j => be1 (ix1 j)) (fun j k => W2 (ix2 j k)) (fun j => b2 (ix1 j)) (i 1)

end Cert.Mlp

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Tile.lean ====
/-
  The kernel's arithmetic on a tile of n rows, read at an entry. The kernel text is cut into the steps the network is
  made of — a one-row array spread over the rows; shift and tanh; normalise and scale; an affine map by the matrix
  unit — each stated here as a function of whole tiles exactly as the kernel writes it, and each shown to be, at row
  p and column q, the corresponding step of `Cert.Mlp` on row p. A change of float format is the identity on the
  extended reals; a matrix product into a zero accumulator is the plain sum over the contracted coordinate; a sum
  over the lanes from zero is the plain sum of the row.
-/
import proofs.«154128_j75617194213894_1_alg».proof.Proof.Spec
import proofs.«154128_j75617194213894_1_alg».proof.Proof.LibDot
import proofs.«154128_j75617194213894_1_alg».proof.Proof.LibRowReduce
import proofs.«154128_j75617194213894_1_alg».proof.Proof.LibKeepdims
import Idealize.ShloMosaic.Lib.ValueLayout
import Idealize.ShloMosaic.Lib.Pipeline.Value
import Idealize.ShloMosaic.PureOps.Ideal.Laws

noncomputable section

namespace Cert.Mlp.Tile

open Idealize.ShloMosaic Idealize.ShloMosaic.ValueIdx
open scoped BigOperators

/-- A tile of n rows of 128 features; a column of n entries; a vector of n entries; one row; a weight matrix. -/
abbrev T (n : Nat) : Shape := ⟨2, ![n, 128]⟩
abbrev C (n : Nat) : Shape := ⟨2, ![n, 1]⟩
abbrev V (n : Nat) : Shape := ⟨1, ![n]⟩
abbrev R : Shape := ⟨2, ![1, 128]⟩
abbrev W : Shape := ⟨2, ![128, 128]⟩

variable {n : Nat}

/-- The side conditions the kernel's operations carry on a tile of n rows. -/
structure Side (n : Nat) : Prop where
  red : (T n).Reduces [1] (V n)
  col : (V n).ShapeCasts (C n)
  spread : (C n).Broadcasts (T n)
  row : R.ShapeCasts R
  rows : R.Broadcasts (T n)
  tile : (T n).ShapeCasts (T n)
  mat : W.ShapeCasts W
  dot : DotDims.WF (T n) W (T n) [1] [0] [0] [1] [] []
  lt : FTy.bits .bf16 < FTy.bits .f32
  fmt : FKind.Formats .f32
  acc : (0x00000000#32 : BitVec 32) = FKind.add.neutral .f32 fmt

variable (S : Side n)

/-- A one-row array spread over the n rows of a tile. -/
def spreadRow (b : FVec Ideal R .f32) : FVec Ideal (T n) .f32 := broadcastTo (T n) (shapeCast R b S.row) S.rows

theorem spreadRow_apply (b : FVec Ideal R .f32) (p : Fin n) (q : Fin 128) : spreadRow S b (ix2 p q) = b (ix2 0 q) := by
  unfold spreadRow
  rw [broadcastTo_1b_ab_apply, shapeCast_self]

/-- Shift by a row, tanh, and the change of format on the way into the matrix unit. -/
def actK (h : FVec Ideal (T n) .f32) (be : FVec Ideal R .f32) : FVec Ideal (T n) .bf16 :=
  truncf .bf16 (tanh (addf h (spreadRow S be))) S.lt

theorem actK_apply (h : FVec Ideal (T n) .f32) (be : FVec Ideal R .f32) (p : Fin n) (q : Fin 128) :
    actK S h be (ix2 p q) = act (fun j => h (ix2 p j)) (fun j => be (ix2 0 j)) q := by
  unfold actK act
  rw [truncf_apply]
  show Ideal.tanh (h (ix2 p q) + spreadRow S be (ix2 p q)) = _
  rw [spreadRow_apply]

/-- The column of row means: the lane sum of each row, kept as a column, divided by 128. -/
def meanK (h : FVec Ideal (T n) .f32) : FVec Ideal (C n) .f32 :=
  divf (shapeCast (C n) (multiReduction .add [1] (V n) h 0x00000000#32 S.red S.fmt S.acc) S.col)
    (broadcast (C n) (Scalar.ofBits .f32 0x43000000#32))

theorem meanK_apply (h : FVec Ideal (T n) .f32) (p : Fin n) (u : Fin 1) :
    meanK S h (ix2 p u) = mean (fun j => h (ix2 p j)) := by
  unfold meanK mean
  rw [divf_apply, shapeCast_a_a1_apply, LibRowReduce.rowSum_apply]
  rfl

/-- Normalise and scale, as the kernel writes it: the mean column spread over the tile and subtracted, the squares'
    lane sum divided by 128, the small constant added, the reciprocal root spread over the tile, the products. -/
def normK (h : FVec Ideal (T n) .f32) (g : FVec Ideal R .f32) : FVec Ideal (T n) .f32 :=
  mulf
    (mulf (subf h (broadcastTo (T n) (meanK S h) S.spread))
      (broadcastTo (T n)
        (rsqrt (addf
          (divf (shapeCast (C n)
              (multiReduction .add [1] (V n)
                (mulf (subf h (broadcastTo (T n) (meanK S h) S.spread)) (subf h (broadcastTo (T n) (meanK S h) S.spread)))
                0x00000000#32 S.red S.fmt S.acc) S.col)
            (broadcast (C n) (Scalar.ofBits .f32 0x43000000#32)))
          (broadcast (C n) (Scalar.ofBits .f32 0x3727C5AC#32))))
        S.spread))
    (spreadRow S g)

theorem centre_apply (h : FVec Ideal (T n) .f32) (p : Fin n) (q : Fin 128) :
    subf h (broadcastTo (T n) (meanK S h) S.spread) (ix2 p q) = centre (fun j => h (ix2 p j)) q := by
  rw [subf_apply, broadcastTo_a1_ab_apply, meanK_apply]
  rfl

theorem normK_apply (h : FVec Ideal (T n) .f32) (g : FVec Ideal R .f32) (p : Fin n) (q : Fin 128) :
    normK S h g (ix2 p q) = norm (fun j => h (ix2 p j)) (fun j => g (ix2 0 j)) q := by
  unfold normK norm variance
  rw [mulf_apply, mulf_apply, centre_apply, spreadRow_apply, broadcastTo_a1_ab_apply]
  show centre _ q * Ideal.rsqrt (Ideal.div (shapeCast (C n) _ S.col (ix2 p 0)) _ + _) * _ = _
  rw [shapeCast_a_a1_apply, LibRowReduce.rowSum_apply]
  simp only [mulf_apply, centre_apply]
  rfl

/-- An affine map by the matrix unit: the product with the weight block into a zero accumulator, plus the bias row. -/
def linK (A : FVec Ideal (T n) .bf16) (B : Vec Ideal W .bf16) (b : FVec Ideal R .f32) : FVec Ideal (T n) .f32 :=
  addf (matmul (LibDot.dims S.dot) none A (shapeCast W B S.mat : FVec Ideal W .bf16) (constant (T n) .f32 0x00000000#32)) (spreadRow S b)

theorem linK_apply (A : FVec Ideal (T n) .bf16) (B : Vec Ideal W .bf16) (b : FVec Ideal R .f32) (p : Fin n) (q : Fin 128) :
    linK S A B b (ix2 p q) = lin (fun k => A (ix2 p k)) (fun j k => B (ix2 k j)) (fun j => b (ix2 0 j)) q := by
  unfold linK lin
  rw [addf_apply, spreadRow_apply, LibDot.matmul_zero_apply, shapeCast_self]

/-- The first affine map: two products, one per input tile, added, plus the bias row. -/
def lin0K (x0 x1 : Vec Ideal (T n) .f32) (Ba Bb : Vec Ideal W .bf16) (b : FVec Ideal R .f32) : FVec Ideal (T n) .f32 :=
  addf
    (addf (matmul (LibDot.dims S.dot) none (truncf .bf16 (shapeCast (T n) x0 S.tile) S.lt) (shapeCast W Ba S.mat : FVec Ideal W .bf16) (constant (T n) .f32 0x00000000#32))
      (matmul (LibDot.dims S.dot) none (truncf .bf16 x1 S.lt) (shapeCast W Bb S.mat : FVec Ideal W .bf16) (constant (T n) .f32 0x00000000#32)))
    (spreadRow S b)

theorem lin0K_apply (x0 x1 : Vec Ideal (T n) .f32) (Ba Bb : Vec Ideal W .bf16) (b : FVec Ideal R .f32) (p : Fin n) (q : Fin 128) :
    lin0K S x0 x1 Ba Bb b (ix2 p q)
      = lin0 (fun k => x0 (ix2 p k)) (fun k => x1 (ix2 p k)) (fun j k => Ba (ix2 k j)) (fun j k => Bb (ix2 k j)) (fun j => b (ix2 0 j)) q := by
  unfold lin0K lin0
  rw [addf_apply, addf_apply, spreadRow_apply, LibDot.matmul_zero_apply, LibDot.matmul_zero_apply, shapeCast_self, shapeCast_self]
  simp only [truncf_apply, shapeCast_self]

/-- The whole body on a tile, from the thirteen input blocks. -/
def bodyK (x0 x1 : Vec Ideal (T n) .f32) (x2 x3 : Vec Ideal W .bf16) (x4 x5 x6 : Vec Ideal R .f32) (x7 : Vec Ideal W .bf16)
    (x8 x9 x10 : Vec Ideal R .f32) (x11 : Vec Ideal W .bf16) (x12 : Vec Ideal R .f32) : FVec Ideal (T n) .f32 :=
  linK S (actK S (normK S (linK S (actK S (normK S (lin0K S x0 x1 x2 x3 x4) x5) x6) x7 x8) x9) x10) x11 x12

/-- The body at row p, column q of the tile: the network on row p of the two input tiles, with the weight blocks read
    transposed (the kernel is handed the transposed matrices) and the one-row arrays read along their row. -/
theorem bodyK_apply (x0 x1 : Vec Ideal (T n) .f32) (x2 x3 : Vec Ideal W .bf16) (x4 x5 x6 : Vec Ideal R .f32) (x7 : Vec Ideal W .bf16)
    (x8 x9 x10 : Vec Ideal R .f32) (x11 : Vec Ideal W .bf16) (x12 : Vec Ideal R .f32) (p : Fin n) (q : Fin 128) :
    bodyK S x0 x1 x2 x3 x4 x5 x6 x7 x8 x9 x10 x11 x12 (ix2 p q)
      = node (fun k => x0 (ix2 p k)) (fun k => x1 (ix2 p k)) (fun j k => x2 (ix2 k j)) (fun j k => x3 (ix2 k j))
          (fun j => x4 (ix2 0 j)) (fun j => x5 (ix2 0 j)) (fun j => x6 (ix2 0 j)) (fun j k => x7 (ix2 k j))
          (fun j => x8 (ix2 0 j)) (fun j => x9 (ix2 0 j)) (fun j => x10 (ix2 0 j)) (fun j k => x11 (ix2 k j))
          (fun j => x12 (ix2 0 j)) q := by
  unfold bodyK node
  rw [linK_apply]
  simp only [actK_apply, normK_apply, linK_apply, lin0K_apply]

end Cert.Mlp.Tile

end
-- ==== Proof.Blocks.lean ====
/-
  From the kernel's blocks to its result array. The grid has 25 points; point t is handed rows 4000 t to 4000 t + 3999
  of the aggregated features and of the node features, and the whole of every weight block and one-row vector, and
  writes back rows 4000 t to 4000 t + 3999 of the result. The body on a tile is the network on each of its rows
  (`Cert.Mlp.Tile`); a weight block is a transposed weight matrix (for the first layer, a transposed column half), a
  one-row block is a bias, scale or shift vector. So what point t writes back is block t of ONE array, `network`: row n
  is the network on row n of the aggregated features and row n of the node features. The 25 blocks cover the array.
-/
import proofs.«154128_j75617194213894_1_alg».proof.Proof.Gen.KernelIdeal.Value
import proofs.«154128_j75617194213894_1_alg».proof.Proof.Entry
import proofs.«154128_j75617194213894_1_alg».proof.Proof.Tile
import Idealize.ShloMosaic.Lib.ValueLayout

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Mlp

variable (m : (ℓ : Loc nD τ sig) → Buf (Elt Ideal) ℓ) (ρ : Dev nD → PrngReg)

theorem hz : (![0, 0] : Fin 2 → Nat) = fun _ => 0 := funext fun a => by fin_cases a <;> rfl

/-- The side conditions of the kernel's operations on a tile of 4000 rows. -/
theorem side : Tile.Side 4000 where
  red := Facts₀.reduces_S4000x128_S4000
  col := Facts₀.shapeCasts_S4000_S4000x1
  spread := Facts₀.broadcasts_S4000x1_S4000x128
  row := Facts₀.shapeCasts_S1x128_S1x128
  rows := Facts₀.broadcasts_S1x128_S4000x128
  tile := Facts₀.shapeCasts_S4000x128_S4000x128
  mat := Facts₀.shapeCasts_S128x128_S128x128
  dot := Facts₀.dot_S4000x128_S128x128_S4000x128_1_0_0_1_n_n_wf
  lt := Facts₀.bitsLt_bf16_f32
  fmt := .inl rfl
  acc := rfl

/-- The body's stored value, as a term of its thirteen loaded blocks, is the tile-level network. -/
theorem body_eq (x0 x1 : Vec Ideal S4000x128 .f32) (x2 x3 : Vec Ideal S128x128 .bf16) (x4 x5 x6 : Vec Ideal S1x128 .f32)
    (x7 : Vec Ideal S128x128 .bf16) (x8 x9 x10 : Vec Ideal S1x128 .f32) (x11 : Vec Ideal S128x128 .bf16) (x12 : Vec Ideal S1x128 .f32) :
    k0_pay1 (F := Ideal) (k0_pay3 (k0_pay2 x0 x1 x2 x3 x4 x5) x6 x7 x8 x9 x10) (k0_pay4 x11) (constant S4000x128 .f32 0x00000000#32) x12
      = Tile.bodyK side x0 x1 x2 x3 x4 x5 x6 x7 x8 x9 x10 x11 x12 := rfl

/-- What the body leaves in the output's buffer. -/
theorem out_eq (x0 x1 : Vec Ideal S4000x128 .f32) (x2 x3 : Vec Ideal S128x128 .bf16) (x4 x5 x6 : Vec Ideal S1x128 .f32)
    (x7 : Vec Ideal S128x128 .bf16) (x8 x9 x10 : Vec Ideal S1x128 .f32) (x11 : Vec Ideal S128x128 .bf16) (x12 : Vec Ideal S1x128 .f32) :
    out0_13 (F := Ideal) x0 x1 x2 x3 x4 x5 x6 x7 x8 x9 x10 x11 x12 = Tile.bodyK side x0 x1 x2 x3 x4 x5 x6 x7 x8 x9 x10 x11 x12 := by
  unfold out0_13
  rw [View.canon_unit_zero hz]
  simp only [View.ld_unit_zero (S := S4000x128) hz, View.ld_unit_zero (S := S128x128) hz, View.ld_unit_zero (S := S1x128) hz]
  exact body_eq x0 x1 x2 x3 x4 x5 x6 x7 x8 x9 x10 x11 x12

/-! ## The printed index maps, decided over the 25 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

/-! ## Each input block as entries of the arrays -/

theorem blk0_apply (c : Dev nD) (t : Fin cfg0.N) (p : Fin 4000) (k : Fin 128) (r : Fin 100000) (hr : r.val = 4000 * t.val + p.val) :
    (iblk m c 0 t : Vec Ideal S4000x128 .f32) (ix2 p k) = Entry.aggregate (m ((c : Thread nD τ).loc main_arg0)) (m ((c : Thread nD τ).loc main_arg1)) (ix2 r k) := by
  obtain ⟨e0, e1⟩ := idx0 t
  unfold iblk
  rw [View.read_apply]
  show (V m c main_v24 : S100000x128.Idx → EReal) _ = _
  rw [Entry.V_v24]
  refine congrArg _ (funext fun a => Fin.ext ?_)
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

theorem blk1_apply (c : Dev nD) (t : Fin cfg0.N) (p : Fin 4000) (k : Fin 128) (r : Fin 100000) (hr : r.val = 4000 * t.val + p.val) :
    (iblk m c 1 t : Vec Ideal S4000x128 .f32) (ix2 p k) = (m ((c : Thread nD τ).loc main_arg0)) (ix2 r k) := by
  obtain ⟨e0, e1⟩ := idx1 t
  unfold iblk
  rw [View.read_apply]
  show (V m c main_arg0 : S100000x128.Idx → EReal) _ = _
  rw [V_main_arg0]
  refine congrArg _ (funext fun a => Fin.ext ?_)
  match a with
  | ⟨0, _⟩ => show win0_1.index t (0 : Fin 2) * 4000 + 1 * p.val = r.val; rw [e0, hr]; omega
  | ⟨1, _⟩ => show win0_1.index t (1 : Fin 2) * 128 + 1 * k.val = k.val; rw [e1]; omega

theorem blk2_apply (c : Dev nD) (t : Fin cfg0.N) (k j : Fin 128) :
    (iblk m c 2 t : Vec Ideal S128x128 .bf16) (ix2 k j) = (m ((c : Thread nD τ).loc main_arg2)) (ix2 j (⟨k.val, by omega⟩ : Fin 256)) := by
  obtain ⟨e0, e1⟩ := idx2 t
  unfold iblk
  rw [View.read_apply]
  show (V m c main_v27 : S128x128.Idx → EReal) _ = _
  rw [Entry.V_v27]
  refine (congrArg _ (funext fun a => Fin.ext ?_ : _ = ix2 k j)).trans ?_
  · match a with
    | ⟨0, _⟩ => show win0_2.index t (0 : Fin 2) * 128 + 1 * k.val = k.val; rw [e0]; omega
    | ⟨1, _⟩ => show win0_2.index t (1 : Fin 2) * 128 + 1 * j.val = j.val; rw [e1]; omega
  · rw [truncf_apply, transpose_ix2_apply]
    exact slice2_axis1_apply 0 _ _ j k _ (by show k.val = 0 + k.val; omega)

theorem blk3_apply (c : Dev nD) (t : Fin cfg0.N) (k j : Fin 128) :
    (iblk m c 3 t : Vec Ideal S128x128 .bf16) (ix2 k j) = (m ((c : Thread nD τ).loc main_arg2)) (ix2 j (⟨128 + k.val, by omega⟩ : Fin 256)) := by
  obtain ⟨e0, e1⟩ := idx3 t
  unfold iblk
  rw [View.read_apply]
  show (V m c main_v30 : S128x128.Idx → EReal) _ = _
  rw [Entry.V_v30]
  refine (congrArg _ (funext fun a => Fin.ext ?_ : _ = ix2 k j)).trans ?_
  · match a with
    | ⟨0, _⟩ => show win0_3.index t (0 : Fin 2) * 128 + 1 * k.val = k.val; rw [e0]; omega
    | ⟨1, _⟩ => show win0_3.index t (1 : Fin 2) * 128 + 1 * j.val = j.val; rw [e1]; omega
  · rw [truncf_apply, transpose_ix2_apply]
    exact slice2_axis1_apply 128 _ _ j k _ rfl

theorem blk4_apply (c : Dev nD) (t : Fin cfg0.N) (j : Fin 128) :
    (iblk m c 4 t : Vec Ideal S1x128 .f32) (ix2 (0 : Fin 1) j) = (m ((c : Thread nD τ).loc main_arg3)) (ix1 j) := by
  obtain ⟨e0, e1⟩ := idx4 t
  unfold iblk
  rw [View.read_apply]
  show (V m c main_v35 : S1x128.Idx → EReal) _ = _
  rw [Entry.V_v35]
  refine (congrArg _ (funext fun a => Fin.ext ?_ : _ = ix2 (0 : Fin 1) j)).trans (shapeCast_a_1a_apply _ _ 0 j)
  match a with
  | ⟨0, _⟩ => show win0_4.index t (0 : Fin 2) * 1 + 1 * 0 = 0; rw [e0]
  | ⟨1, _⟩ => show win0_4.index t (1 : Fin 2) * 128 + 1 * j.val = j.val; rw [e1]; omega

theorem blk5_apply (c : Dev nD) (t : Fin cfg0.N) (j : Fin 128) :
    (iblk m c 5 t : Vec Ideal S1x128 .f32) (ix2 (0 : Fin 1) j) = (m ((c : Thread nD τ).loc main_arg4)) (ix1 j) := by
  obtain ⟨e0, e1⟩ := idx5 t
  unfold iblk
  rw [View.read_apply]
  show (V m c main_v36 : S1x128.Idx → EReal) _ = _
  rw [Entry.V_v36]
  refine (congrArg _ (funext fun a => Fin.ext ?_ : _ = ix2 (0 : Fin 1) j)).trans (shapeCast_a_1a_apply _ _ 0 j)
  match a with
  | ⟨0, _⟩ => show win0_5.index t (0 : Fin 2) * 1 + 1 * 0 = 0; rw [e0]
  | ⟨1, _⟩ => show win0_5.index t (1 : Fin 2) * 128 + 1 * j.val = j.val; rw [e1]; omega

theorem blk6_apply (c : Dev nD) (t : Fin cfg0.N) (j : Fin 128) :
    (iblk m c 6 t : Vec Ideal S1x128 .f32) (ix2 (0 : Fin 1) j) = (m ((c : Thread nD τ).loc main_arg5)) (ix1 j) := by
  obtain ⟨e0, e1⟩ := idx6 t
  unfold iblk
  rw [View.read_apply]
  show (V m c main_v37 : S1x128.Idx → EReal) _ = _
  rw [Entry.V_v37]
  refine (congrArg _ (funext fun a => Fin.ext ?_ : _ = ix2 (0 : Fin 1) j)).trans (shapeCast_a_1a_apply _ _ 0 j)
  match a with
  | ⟨0, _⟩ => show win0_6.index t (0 : Fin 2) * 1 + 1 * 0 = 0; rw [e0]
  | ⟨1, _⟩ => show win0_6.index t (1 : Fin 2) * 128 + 1 * j.val = j.val; rw [e1]; omega

theorem blk7_apply (c : Dev nD) (t : Fin cfg0.N) (k j : Fin 128) :
    (iblk m c 7 t : Vec Ideal S128x128 .bf16) (ix2 k j) = (m ((c : Thread nD τ).loc main_arg6)) (ix2 j k) := by
  obtain ⟨e0, e1⟩ := idx7 t
  unfold iblk
  rw [View.read_apply]
  show (V m c main_v32 : S128x128.Idx → EReal) _ = _
  rw [Entry.V_v32]
  refine (congrArg _ (funext fun a => Fin.ext ?_ : _ = ix2 k j)).trans ?_
  · match a with
    | ⟨0, _⟩ => show win0_7.index t (0 : Fin 2) * 128 + 1 * k.val = k.val; rw [e0]; omega
    | ⟨1, _⟩ => show win0_7.index t (1 : Fin 2) * 128 + 1 * j.val = j.val; rw [e1]; omega
  · rw [truncf_apply, transpose_ix2_apply]

theorem blk8_apply (c : Dev nD) (t : Fin cfg0.N) (j : Fin 128) :
    (iblk m c 8 t : Vec Ideal S1x128 .f32) (ix2 (0 : Fin 1) j) = (m ((c : Thread nD τ).loc main_arg7)) (ix1 j) := by
  obtain ⟨e0, e1⟩ := idx8 t
  unfold iblk
  rw [View.read_apply]
  show (V m c main_v38 : S1x128.Idx → EReal) _ = _
  rw [Entry.V_v38]
  refine (congrArg _ (funext fun a => Fin.ext ?_ : _ = ix2 (0 : Fin 1) j)).trans (shapeCast_a_1a_apply _ _ 0 j)
  match a with
  | ⟨0, _⟩ => show win0_8.index t (0 : Fin 2) * 1 + 1 * 0 = 0; rw [e0]
  | ⟨1, _⟩ => show win0_8.index t (1 : Fin 2) * 128 + 1 * j.val = j.val; rw [e1]; omega

theorem blk9_apply (c : Dev nD) (t : Fin cfg0.N) (j : Fin 128) :
    (iblk m c 9 t : Vec Ideal S1x128 .f32) (ix2 (0 : Fin 1) j) = (m ((c : Thread nD τ).loc main_arg8)) (ix1 j) := by
  obtain ⟨e0, e1⟩ := idx9 t
  unfold iblk
  rw [View.read_apply]
  show (V m c main_v39 : S1x128.Idx → EReal) _ = _
  rw [Entry.V_v39]
  refine (congrArg _ (funext fun a => Fin.ext ?_ : _ = ix2 (0 : Fin 1) j)).trans (shapeCast_a_1a_apply _ _ 0 j)
  match a with
  | ⟨0, _⟩ => show win0_9.index t (0 : Fin 2) * 1 + 1 * 0 = 0; rw [e0]
  | ⟨1, _⟩ => show win0_9.index t (1 : Fin 2) * 128 + 1 * j.val = j.val; rw [e1]; omega

theorem blk10_apply (c : Dev nD) (t : Fin cfg0.N) (j : Fin 128) :
    (iblk m c 10 t : Vec Ideal S1x128 .f32) (ix2 (0 : Fin 1) j) = (m ((c : Thread nD τ).loc main_arg9)) (ix1 j) := by
  obtain ⟨e0, e1⟩ := idx10 t
  unfold iblk
  rw [View.read_apply]
  show (V m c main_v40 : S1x128.Idx → EReal) _ = _
  rw [Entry.V_v40]
  refine (congrArg _ (funext fun a => Fin.ext ?_ : _ = ix2 (0 : Fin 1) j)).trans (shapeCast_a_1a_apply _ _ 0 j)
  match a with
  | ⟨0, _⟩ => show win0_10.index t (0 : Fin 2) * 1 + 1 * 0 = 0; rw [e0]
  | ⟨1, _⟩ => show win0_10.index t (1 : Fin 2) * 128 + 1 * j.val = j.val; rw [e1]; omega

theorem blk11_apply (c : Dev nD) (t : Fin cfg0.N) (k j : Fin 128) :
    (iblk m c 11 t : Vec Ideal S128x128 .bf16) (ix2 k j) = (m ((c : Thread nD τ).loc main_arg10)) (ix2 j k) := by
  obtain ⟨e0, e1⟩ := idx11 t
  unfold iblk
  rw [View.read_apply]
  show (V m c main_v34 : S128x128.Idx → EReal) _ = _
  rw [Entry.V_v34]
  refine (congrArg _ (funext fun a => Fin.ext ?_ : _ = ix2 k j)).trans ?_
  · match a with
    | ⟨0, _⟩ => show win0_11.index t (0 : Fin 2) * 128 + 1 * k.val = k.val; rw [e0]; omega
    | ⟨1, _⟩ => show win0_11.index t (1 : Fin 2) * 128 + 1 * j.val = j.val; rw [e1]; omega
  · rw [truncf_apply, transpose_ix2_apply]

theorem blk12_apply (c : Dev nD) (t : Fin cfg0.N) (j : Fin 128) :
    (iblk m c 12 t : Vec Ideal S1x128 .f32) (ix2 (0 : Fin 1) j) = (m ((c : Thread nD τ).loc main_arg11)) (ix1 j) := by
  obtain ⟨e0, e1⟩ := idx12 t
  unfold iblk
  rw [View.read_apply]
  show (V m c main_v41 : S1x128.Idx → EReal) _ = _
  rw [Entry.V_v41]
  refine (congrArg _ (funext fun a => Fin.ext ?_ : _ = ix2 (0 : Fin 1) j)).trans (shapeCast_a_1a_apply _ _ 0 j)
  match a with
  | ⟨0, _⟩ => show win0_12.index t (0 : Fin 2) * 1 + 1 * 0 = 0; rw [e0]
  | ⟨1, _⟩ => show win0_12.index t (1 : Fin 2) * 128 + 1 * j.val = j.val; rw [e1]; omega

/-! ## The result array -/

/-- Row n of the result: the network on row n of the aggregated features and row n of the node features. -/
def network (c : Dev nD) : S100000x128.Idx → EReal :=
  Mlp.result (Entry.aggregate (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The tile-level network on blocks that are rows 4000 t … of the arrays (and the whole of the weights), at an entry of
    the tile, is the result array at the entry 4000 t rows further down. -/
theorem point (c : Dev nD) (t : Fin cfg0.N) (X0 X1 : Vec Ideal S4000x128 .f32) (X2 X3 : Vec Ideal S128x128 .bf16)
    (X4 X5 X6 : Vec Ideal S1x128 .f32) (X7 : Vec Ideal S128x128 .bf16) (X8 X9 X10 : Vec Ideal S1x128 .f32)
    (X11 : Vec Ideal S128x128 .bf16) (X12 : Vec Ideal S1x128 .f32)
    (h0 : ∀ (p : Fin 4000) (k : Fin 128) (r : Fin 100000), r.val = 4000 * t.val + p.val →
      X0 (ix2 p k) = Entry.aggregate (m ((c : Thread nD τ).loc main_arg0)) (m ((c : Thread nD τ).loc main_arg1)) (ix2 r k))
    (h1 : ∀ (p : Fin 4000) (k : Fin 128) (r : Fin 100000), r.val = 4000 * t.val + p.val → X1 (ix2 p k) = (m ((c : Thread nD τ).loc main_arg0)) (ix2 r k))
    (h2 : ∀ k j : Fin 128, X2 (ix2 k j) = (m ((c : Thread nD τ).loc main_arg2)) (ix2 j (⟨k.val, by omega⟩ : Fin 256)))
    (h3 : ∀ k j : Fin 128, X3 (ix2 k j) = (m ((c : Thread nD τ).loc main_arg2)) (ix2 j (⟨128 + k.val, by omega⟩ : Fin 256)))
    (h4 : ∀ j : Fin 128, X4 (ix2 (0 : Fin 1) j) = (m ((c : Thread nD τ).loc main_arg3)) (ix1 j))
    (h5 : ∀ j : Fin 128, X5 (ix2 (0 : Fin 1) j) = (m ((c : Thread nD τ).loc main_arg4)) (ix1 j))
    (h6 : ∀ j : Fin 128, X6 (ix2 (0 : Fin 1) j) = (m ((c : Thread nD τ).loc main_arg5)) (ix1 j))
    (h7 : ∀ k j : Fin 128, X7 (ix2 k j) = (m ((c : Thread nD τ).loc main_arg6)) (ix2 j k))
    (h8 : ∀ j : Fin 128, X8 (ix2 (0 : Fin 1) j) = (m ((c : Thread nD τ).loc main_arg7)) (ix1 j))
    (h9 : ∀ j : Fin 128, X9 (ix2 (0 : Fin 1) j) = (m ((c : Thread nD τ).loc main_arg8)) (ix1 j))
    (h10 : ∀ j : Fin 128, X10 (ix2 (0 : Fin 1) j) = (m ((c : Thread nD τ).loc main_arg9)) (ix1 j))
    (h11 : ∀ k j : Fin 128, X11 (ix2 k j) = (m ((c : Thread nD τ).loc main_arg10)) (ix2 j k))
    (h12 : ∀ j : Fin 128, X12 (ix2 (0 : Fin 1) j) = (m ((c : Thread nD τ).loc main_arg11)) (ix1 j))
    (y : S4000x128.Idx) (i : S100000x128.Idx) (hi0 : (i 0).val = 4000 * t.val + (y 0).val) (hi1 : (i 1).val = (y 1).val) :
    Tile.bodyK side X0 X1 X2 X3 X4 X5 X6 X7 X8 X9 X10 X11 X12 y = network m c i := by
  obtain ⟨p, q, rfl⟩ : ∃ (p : Fin 4000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  have hr : r.val = 4000 * t.val + p.val := hi0
  rw [Tile.bodyK_apply]
  unfold network Mlp.result
  show node _ _ _ _ _ _ _ _ _ _ _ _ _ q' = node _ _ _ _ _ _ _ _ _ _ _ _ _ q'
  simp only [h0 _ _ r hr, h1 _ _ r hr, h2, h3, h4, h5, h6, h7, h8, h9, h10, h11, h12]

/-- WHAT POINT t WRITES BACK is block t of the result array. -/
theorem flushed_eq (c : Dev nD) (t : Fin cfg0.N) :
    (dats m 0 c).flushed 13 t = ((cfg0.win 13).blk t).view.read (Elt Ideal) (network m c) := by
  rw [Value.flushed13]
  rw [out_eq]
  obtain ⟨e0, e1⟩ := idx13 t
  funext y
  exact point m c t (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (blk0_apply m c t) (blk1_apply m c t) (blk2_apply m c t) (blk3_apply m c t) (blk4_apply m c t) (blk5_apply m c t)
    (blk6_apply m c t) (blk7_apply m c t) (blk8_apply m c t) (blk9_apply m c t) (blk10_apply m c t) (blk11_apply m c t)
    (blk12_apply m c t) y (((cfg0.win 13).blk t).view.emb y)
    (by show win0_13.index t (0 : Fin 2) * 4000 + 1 * (y 0).val = 4000 * t.val + (y 0).val; rw [e0]; omega)
    (by show win0_13.index t (1 : Fin 2) * 128 + 1 * (y 1).val = (y 1).val; rw [e1]; omega)

/-- An index of the array is in point t's block iff each coordinate is in the block's range on its axis. -/
theorem mem_blk (t : Fin cfg0.N) (i : S100000x128.Idx) :
    i ∈ ((cfg0.win 13).blk t).view.set ↔ ∀ a : Fin 2, win0_13.index t a * S4000x128.size a ≤ (i a).val ∧ (i a).val < win0_13.index t a * S4000x128.size a + S4000x128.size a := by
  show i ∈ ((View.whole main_v42).slice (win0_13.rect t)).set ↔ _
  rw [View.set_slice_whole, Rect.mem_set_unit]
  exact Iff.rfl

/-- Every row is in some point's block: row n in block n / 4000. -/
theorem cover (i : S100000x128.Idx) :
    ∃ t : Fin cfg0.N, (cfg0.win 13).flush t = true ∧ i ∈ ((cfg0.win 13).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨e0, e1⟩ := idx13 t
  refine ⟨t, flush0_13 t, ?_⟩
  rw [mem_blk]
  intro a
  match a with
  | ⟨0, _⟩ =>
    show win0_13.index t (0 : Fin 2) * 4000 ≤ (i 0).val ∧ (i 0).val < win0_13.index t (0 : Fin 2) * 4000 + 4000
    rw [e0, ht]; omega
  | ⟨1, _⟩ =>
    show win0_13.index t (1 : Fin 2) * 128 ≤ (i 1).val ∧ (i 1).val < win0_13.index t (1 : Fin 2) * 128 + 128
    rw [e1]; omega

/-- So the result array ends holding `network`. -/
theorem final (c : Dev nD) : (dats m 0 c).arrAt 13 cfg0.N = network m c :=
  (dats m 0 c).arrAt_eq_of_cover 13 (network m c) (fun t _ => flushed_eq m c t) cover

/-- The kernel's run, read: the result array at `network`, the arguments unchanged. -/
theorem run : θ_run defs (onTc (τ := τ) (main (F := Ideal))) ⟨m, fun _ => 0, ρ⟩ fun r => ∀ c : Dev nD,
      r.2.mem ((c : Thread nD τ).loc main_v42) = network m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.Hand

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.LibConcatCols.lean ====
/-
  Two matrices with the same number of rows laid side by side (a concatenation along axis 1) read at an entry:
  entry (p, c) of the joined n × t matrix is entry (p, c) of the left n × a piece when c < a, and entry (p, c - a)
  of the right n × b piece otherwise (a + b = t). A consequence: if row p of two pieces agrees, column by column,
  with row p' of two other pieces of the same widths, then row p of the first join is row p' of the second.
-/
import Idealize.ShloMosaic.Lib.Pipeline.Value
import Idealize.ShloMosaic.Lib.ValueIdx

noncomputable section

namespace Cert.LibConcatCols

open Idealize.ShloMosaic Idealize.ShloMosaic.ValueIdx

variable {α : Type} {n a b t : Nat}

/-- Entry (p, c) of two pieces joined along the columns: the left piece's entry when c is one of its columns,
    otherwise the right piece's entry, a columns further left. -/
theorem concat_cols_apply (hab : a + b = t)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate (⟨2, ![n, t]⟩ : Shape) 1 [⟨⟨2, ![n, a]⟩, x⟩, ⟨⟨2, ![n, b]⟩, y⟩] h (ix2 p c)
      = if hc : c.val < a then x (ix2 p ⟨c.val, hc⟩) else y (ix2 p ⟨c.val - a, by omega⟩) := by
  split
  · next hc =>
    exact concatenate_pair_apply_left (1 : Fin 2) x y h (ix2 p c) rfl (ix2 p ⟨c.val, hc⟩)
      (fun d => match d with | ⟨0, _⟩ => rfl | ⟨1, _⟩ => rfl)
  · next hc =>
    exact concatenate_pair_apply_right (1 : Fin 2) x y h (ix2 p c) rfl rfl (ix2 p ⟨c.val - a, by omega⟩)
      (fun d hd => match d, hd with
        | ⟨0, _⟩, _ => rfl
        | ⟨1, _⟩, hd => absurd rfl hd)
      (by show (c.val - a) + a = c.val; omega)

/-- Rows that agree piece by piece agree after the pieces are joined: if row p of x is row p' of x' and row p of y is
    row p' of y', then row p of [x | y] is row p' of [x' | y']. -/
theorem concat_cols_row_congr {n' : Nat} (hab : a + b = t)
    (x : (⟨2, ![n, a]⟩ : Shape).Idx → α) (y : (⟨2, ![n, b]⟩ : Shape).Idx → α)
    (x' : (⟨2, ![n', a]⟩ : Shape).Idx → α) (y' : (⟨2, ![n', b]⟩ : Shape).Idx → α)
    (h : Shape.Concatenates [(⟨2, ![n, a]⟩ : Shape), ⟨2, ![n, b]⟩] ⟨2, ![n, t]⟩ 1)
    (h' : Shape.Concatenates [(⟨2, ![n', a]⟩ : Shape), ⟨2, ![n', b]⟩] ⟨2, ![n', t]⟩ 1)
    (p : Fin n) (p' : Fin n')
    (hx : ∀ c : Fin a, x (ix2 p c) = x' (ix2 p' c)) (hy : ∀ c : Fin b, y (ix2 p c) = y' (ix2 p' c)) (c : Fin t) :
    concatenate (⟨2, ![n, t]⟩ : Shape) 1 [⟨⟨2, ![n, a]⟩, x⟩, ⟨⟨2, ![n, b]⟩, y⟩] h (ix2 p c)
      = concatenate (⟨2, ![n', t]⟩ : Shape) 1 [⟨⟨2, ![n', a]⟩, x'⟩, ⟨⟨2, ![n', b]⟩, y'⟩] h' (ix2 p' c) := by
  rw [concat_cols_apply hab, concat_cols_apply hab]
  split
  · exact hx _
  · exact hy _

end Cert.LibConcatCols
-- ==== Proof.Whole.lean ====
/-
  The reference's arithmetic on whole arrays of n rows, read at an entry. The reference text is cut into the same
  steps as the network — a bias vector spread over the rows; normalise, scale, shift and tanh; an affine map by a
  host matrix product with the transposed weight matrix; the first affine map, on the two inputs joined along the
  columns — each stated here as a function of whole arrays exactly as the reference writes it, and each shown to be,
  at row r and column q, the corresponding step of `Cert.Mlp` on row r.

  The one place where the two programs differ in arrangement is the first affine map: here a row of 256 entries (the
  aggregated features then the node's own) meets a row of the 256-column weight matrix in ONE sum; that sum is the
  sum over the first 128 columns plus the sum over the last 128 (`sum_halves`, true in any commutative monoid).
-/
import proofs.«154128_j75617194213894_1_alg».proof.Proof.Spec
import proofs.«154128_j75617194213894_1_alg».proof.Proof.LibDot
import proofs.«154128_j75617194213894_1_alg».proof.Proof.LibHostRead
import proofs.«154128_j75617194213894_1_alg».proof.Proof.LibConcatCols
import Idealize.ShloMosaic.Lib.ValueLayout
import Idealize.ShloMosaic.Lib.Pipeline.Value
import Idealize.ShloMosaic.PureOps.Ideal.Laws

noncomputable section

namespace Cert.Mlp.Whole

open Idealize.ShloMosaic Idealize.ShloMosaic.ValueIdx
open scoped BigOperators

/-- An array of n rows of 128 features; a column; a vector of n entries; one row; a vector of 128 entries; a scalar;
    a square weight matrix; n rows of 256 features; the first weight matrix and its transpose. -/
abbrev T (n : Nat) : Shape := ⟨2, ![n, 128]⟩
abbrev C (n : Nat) : Shape := ⟨2, ![n, 1]⟩
abbrev V (n : Nat) : Shape := ⟨1, ![n]⟩
abbrev R : Shape := ⟨2, ![1, 128]⟩
abbrev B : Shape := ⟨1, ![128]⟩
abbrev S0 : Shape := ⟨0, ![]⟩
abbrev W : Shape := ⟨2, ![128, 128]⟩
abbrev T2 (n : Nat) : Shape := ⟨2, ![n, 256]⟩
abbrev W0 : Shape := ⟨2, ![128, 256]⟩
abbrev W0t : Shape := ⟨2, ![256, 128]⟩

variable {n : Nat}

/-- The side conditions the reference's operations carry on arrays of n rows. -/
structure Side (n : Nat) : Prop where
  red : (T n).ReducesTo [1] (V n)
  pos : 0 < S0.numel
  col : (V n).BroadcastsInDim (C n) (![0] : Fin 1 → Fin 2)
  scal : S0.BroadcastsInDim (C n) (![] : Fin 0 → Fin 2)
  spread : (C n).BroadcastsInDim (T n) (![0, 1] : Fin 2 → Fin 2)
  row : B.BroadcastsInDim R (![1] : Fin 1 → Fin 2)
  rows : R.BroadcastsInDim (T n) (![0, 1] : Fin 2 → Fin 2)
  tr : W.Transposes [1, 0] W
  tr0 : W0.Transposes [1, 0] W0t
  cat : Shape.Concatenates [T n, T n] (T2 n) 1
  dot : DotDims.WF (T n) W (T n) [1] [0] [0] [1] [] []
  dot0 : DotDims.WF (T2 n) W0t (T n) [1] [0] [0] [1] [] []

variable (S : Side n)

/-- A vector of 128 entries spread over the n rows. -/
def spreadVec (b : FVec Ideal B .f32) : FVec Ideal (T n) .f32 :=
  broadcastInDim (T n) (![0, 1] : Fin 2 → Fin 2) S.rows (broadcastInDim R (![1] : Fin 1 → Fin 2) S.row b)

theorem spreadVec_apply (b : FVec Ideal B .f32) (r : Fin n) (q : Fin 128) : spreadVec S b (ix2 r q) = b (ix1 q) :=
  LibHostRead.bcastRow_apply b S.row S.rows r q

/-- The column of row means: the sum of each row from zero, kept as a column, divided by 128. -/
def meanR (h : FVec Ideal (T n) .f32) : FVec Ideal (C n) .f32 :=
  Host.divf (broadcastInDim (C n) (![0] : Fin 1 → Fin 2) S.col (Host.reduceAdd h (constant S0 .f32 0x00000000#32) S.red S.pos))
    (broadcastInDim (C n) (![] : Fin 0 → Fin 2) S.scal (constant S0 .f32 0x43000000#32))

theorem rowSum_apply (h : FVec Ideal (T n) .f32) (r : Fin n) :
    Host.reduceAdd h (constant (F := Ideal) S0 .f32 0x00000000#32) S.red S.pos (ix1 r) = ∑ j : Fin 128, h (ix2 r j) :=
  LibHostRead.hostSumAxis1_apply h _ S.red S.pos (by rw [constant_apply]; exact Ideal.ofBits_zero_f32) r

theorem meanR_apply (h : FVec Ideal (T n) .f32) (r : Fin n) (u : Fin 1) :
    meanR S h (ix2 r u) = mean (fun j => h (ix2 r j)) := by
  unfold meanR mean
  rw [LibHostRead.hostDivf_apply, LibHostRead.bcast_a_a1_apply, rowSum_apply S, LibHostRead.bcastConst_apply]
  rfl

/-- A row with its mean removed, as the reference writes it. -/
def centreR (h : FVec Ideal (T n) .f32) : FVec Ideal (T n) .f32 :=
  subf h (broadcastInDim (T n) (![0, 1] : Fin 2 → Fin 2) S.spread (meanR S h))

theorem centreR_apply (h : FVec Ideal (T n) .f32) (r : Fin n) (q : Fin 128) :
    centreR S h (ix2 r q) = centre (fun j => h (ix2 r j)) q := by
  unfold centreR
  rw [subf_apply, LibHostRead.bcast_a1_ab_apply, meanR_apply]
  rfl

/-- Normalise, scale, shift and tanh, as the reference writes it. -/
def normActR (h : FVec Ideal (T n) .f32) (g be : FVec Ideal B .f32) : FVec Ideal (T n) .f32 :=
  Host.tanh (addf
    (mulf
      (mulf (subf h (broadcastInDim (T n) (![0, 1] : Fin 2 → Fin 2) S.spread (meanR S h)))
        (broadcastInDim (T n) (![0, 1] : Fin 2 → Fin 2) S.spread
          (Host.rsqrt (addf
            (Host.divf
              (broadcastInDim (C n) (![0] : Fin 1 → Fin 2) S.col
                (Host.reduceAdd (mulf (centreR S h) (centreR S h)) (constant S0 .f32 0x00000000#32) S.red S.pos))
              (broadcastInDim (C n) (![] : Fin 0 → Fin 2) S.scal (constant S0 .f32 0x43000000#32)))
            (broadcastInDim (C n) (![] : Fin 0 → Fin 2) S.scal (constant S0 .f32 0x3727C5AC#32))))))
      (spreadVec S g))
    (spreadVec S be))

theorem normActR_apply (h : FVec Ideal (T n) .f32) (g be : FVec Ideal B .f32) (r : Fin n) (q : Fin 128) :
    normActR S h g be (ix2 r q)
      = act (norm (fun j => h (ix2 r j)) (fun j => g (ix1 j))) (fun j => be (ix1 j)) q := by
  unfold normActR act norm variance
  show Ideal.tanh (_ * _ * _ + _) = _
  rw [spreadVec_apply, spreadVec_apply, LibHostRead.bcast_a1_ab_apply]
  show Ideal.tanh (centreR S h (ix2 r q) * Ideal.rsqrt (Ideal.div (broadcastInDim (C n) _ S.col _ (ix2 r 0)) _ + _) * _ + _) = _
  rw [centreR_apply, LibHostRead.bcast_a_a1_apply, rowSum_apply S]
  simp only [mulf_apply, centreR_apply]
  rfl

/-- An affine map: the host product with the transposed weight matrix, plus the bias vector spread over the rows. -/
def linR (A : FVec Ideal (T n) .f32) (Wm : FVec Ideal W .f32) (b : FVec Ideal B .f32) : FVec Ideal (T n) .f32 :=
  addf (Host.dotGeneral (LibDot.dims S.dot) none A (transpose W [1, 0] Wm S.tr)) (spreadVec S b)

theorem linR_apply (A : FVec Ideal (T n) .f32) (Wm : FVec Ideal W .f32) (b : FVec Ideal B .f32) (r : Fin n) (q : Fin 128) :
    linR S A Wm b (ix2 r q) = lin (fun k => A (ix2 r k)) (fun j k => Wm (ix2 j k)) (fun j => b (ix1 j)) q := by
  unfold linR lin
  rw [addf_apply, spreadVec_apply, LibDot.dotGeneral_apply]
  refine congrArg (· + b (ix1 q)) (Finset.sum_congr rfl fun k _ => ?_)
  rw [transpose_ix2_apply]

/-- The first affine map: the two inputs joined along the columns, times the transposed 256-column weight matrix. -/
def lin0R (M X : FVec Ideal (T n) .f32) (Wm : FVec Ideal W0 .f32) (b : FVec Ideal B .f32) : FVec Ideal (T n) .f32 :=
  addf (Host.dotGeneral (LibDot.dims S.dot0) none
      (concatenate (T2 n) 1 [⟨T n, M⟩, ⟨T n, X⟩] S.cat) (transpose W0t [1, 0] Wm S.tr0)) (spreadVec S b)

theorem lin0R_apply (M X : FVec Ideal (T n) .f32) (Wm : FVec Ideal W0 .f32) (b : FVec Ideal B .f32) (r : Fin n) (q : Fin 128) :
    lin0R S M X Wm b (ix2 r q)
      = lin0 (fun k => M (ix2 r k)) (fun k => X (ix2 r k)) (fun j k => Wm (ix2 j (⟨k.val, by omega⟩ : Fin 256)))
          (fun j k => Wm (ix2 j (⟨128 + k.val, by omega⟩ : Fin 256))) (fun j => b (ix1 j)) q := by
  unfold lin0R lin0
  rw [addf_apply, spreadVec_apply, LibDot.dotGeneral_apply, sum_halves]
  congr 2
  · refine Finset.sum_congr rfl fun k _ => ?_
    rw [LibConcatCols.concat_cols_apply (by norm_num : 128 + 128 = 256), transpose_ix2_apply, dif_pos (show k.val < 128 from k.isLt)]
  · refine Finset.sum_congr rfl fun k _ => ?_
    rw [LibConcatCols.concat_cols_apply (by norm_num : 128 + 128 = 256), transpose_ix2_apply, dif_neg (by show ¬ (128 + k.val < 128); omega)]
    congr 3
    exact Fin.ext (by show 128 + k.val - 128 = k.val; omega)

/-- The whole reference after the aggregation, from the aggregated features M, the node features X and the weights. -/
def bodyR (M X : FVec Ideal (T n) .f32) (Wm0 : FVec Ideal W0 .f32) (b0 g0 be0 : FVec Ideal B .f32) (Wm1 : FVec Ideal W .f32)
    (b1 g1 be1 : FVec Ideal B .f32) (Wm2 : FVec Ideal W .f32) (b2 : FVec Ideal B .f32) : FVec Ideal (T n) .f32 :=
  linR S (normActR S (linR S (normActR S (lin0R S M X Wm0 b0) g0 be0) Wm1 b1) g1 be1) Wm2 b2

/-- At row r, column q: the network on row r. -/
theorem bodyR_apply (M X : FVec Ideal (T n) .f32) (Wm0 : FVec Ideal W0 .f32) (b0 g0 be0 : FVec Ideal B .f32) (Wm1 : FVec Ideal W .f32)
    (b1 g1 be1 : FVec Ideal B .f32) (Wm2 : FVec Ideal W .f32) (b2 : FVec Ideal B .f32) (r : Fin n) (q : Fin 128) :
    bodyR S M X Wm0 b0 g0 be0 Wm1 b1 g1 be1 Wm2 b2 (ix2 r q)
      = node (fun k => M (ix2 r k)) (fun k => X (ix2 r k)) (fun j k => Wm0 (ix2 j (⟨k.val, by omega⟩ : Fin 256)))
          (fun j k => Wm0 (ix2 j (⟨128 + k.val, by omega⟩ : Fin 256))) (fun j => b0 (ix1 j)) (fun j => g0 (ix1 j))
          (fun j => be0 (ix1 j)) (fun j k => Wm1 (ix2 j k)) (fun j => b1 (ix1 j)) (fun j => g1 (ix1 j)) (fun j => be1 (ix1 j))
          (fun j k => Wm2 (ix2 j k)) (fun j => b2 (ix1 j)) q := by
  unfold bodyR node
  rw [linR_apply]
  simp only [normActR_apply, linR_apply, lin0R_apply]

end Cert.Mlp.Whole

end
-- ==== Proof.Ref.lean ====
/-
  The reference's run, read. Its result is the composed term of its host operations; cut at the aggregation, that term
  is the reference's network text (`Cert.Mlp.Whole`) applied to the aggregated features, the node features and the
  weights as launched, and that is, row by row, the network of `Cert.Mlp`.
-/
import proofs.«154128_j75617194213894_1_alg».proof.Proof.Gen.ReferenceIdeal.Run
import proofs.«154128_j75617194213894_1_alg».proof.Proof.Whole

noncomputable section

namespace Cert.ReferenceIdeal.Hand

open Cert.ReferenceIdeal Cert.ReferenceIdeal.Gen Cert.ReferenceIdeal.Value Idealize.ShloMosaic Idealize.ShloMosaic.TcCoe Idealize.SL.Sem
open Idealize.ShloMosaic.ValueIdx
open Cert.Mlp

/-- The side conditions of the reference's operations on arrays of 100000 rows. -/
theorem side : Whole.Side 100000 where
  red := Facts₀.reducesTo_S100000x128_S100000_d1
  pos := Facts₀.h_S_
  col := Facts₀.bcast_S100000_S100000x1_0
  scal := Facts₀.bcast_S_S100000x1
  spread := Facts₀.bcast_S100000x1_S100000x128_0_1
  row := Facts₀.bcast_S128_S1x128_1
  rows := Facts₀.bcast_S1x128_S100000x128_0_1
  tr := Facts₀.transposes_S128x128_S128x128_1_0
  tr0 := Facts₀.transposes_S128x256_S256x128_1_0
  cat := Facts₀.concatenates_S100000x128_S100000x128_S100000x256_d1
  dot := Facts₀.dot_S100000x128_S128x128_S100000x128_1_0_0_1_n_n_wf
  dot0 := Facts₀.dot_S100000x256_S256x128_S100000x128_1_0_0_1_n_n_wf

/-- The endpoints of the edges, one vector per row of the edge list. -/
def ends (e : IVec S2x600000 32) (k : Nat) (h : S2x600000.Slices ![k, 0] S1x600000) : IVec S600000 32 :=
  shapeCast S600000 (extractStridedSlice S1x600000 ![k, 0] e h) Facts₀.shapeCasts_S1x600000_S600000

/-- Rows of x gathered at one endpoint of every edge (a negative index counted from the end) and added into the row of
    the other endpoint, from zero. -/
def pass (x : FVec Ideal S100000x128 .f32) (src dst : IVec S600000 32) : FVec Ideal S100000x128 .f32 :=
  Host.scatterAdd scatter_S100000x128_S600000x1_S600000x128_1_0_0_1
    (broadcastInDim S100000x128 ![] Facts₀.bcast_S_S100000x128 (constant S_ .f32 0x00000000#32))
    (broadcastInDim S600000x1 ![0] Facts₀.bcast_S600000_S600000x1_0 dst)
    (Host.gather gather_S100000x128_S600000x1_S600000x128_1_0_n_n_0_1_1128 x
      (broadcastInDim S600000x1 ![0] Facts₀.bcast_S600000_S600000x1_0
        (select (cmpi .slt src (broadcastInDim S600000 ![] Facts₀.bcast_S_S600000 (constantI S_ 32 0#32)))
          (addi src (broadcastInDim S600000 ![] Facts₀.bcast_S_S600000 (constantI S_ 32 100000#32))) src)))

/-- The aggregated neighbour features: both directions of every edge. -/
def aggregate (x : FVec Ideal S100000x128 .f32) (e : IVec S2x600000 32) : FVec Ideal S100000x128 .f32 :=
  addf (pass x (ends e 0 Facts₀.slices_S2x600000_S1x600000_0_0) (ends e 1 Facts₀.slices_S2x600000_S1x600000_1_0))
    (pass x (ends e 1 Facts₀.slices_S2x600000_S1x600000_1_0) (ends e 0 Facts₀.slices_S2x600000_S1x600000_0_0))

/-- The reference's network text is, row by row, the network. -/
theorem result_eq (M X : FVec Ideal S100000x128 .f32) (W0 : FVec Ideal S128x256 .f32) (b0 g0 be0 : FVec Ideal S128 .f32)
    (W1 : FVec Ideal S128x128 .f32) (b1 g1 be1 : FVec Ideal S128 .f32) (W2 : FVec Ideal S128x128 .f32) (b2 : FVec Ideal S128 .f32) :
    Whole.bodyR side M X W0 b0 g0 be0 W1 b1 g1 be1 W2 b2 = Mlp.result M X W0 b0 g0 be0 W1 b1 g1 be1 W2 b2 := by
  funext i
  obtain ⟨r, q, rfl⟩ : ∃ (r : Fin 100000) (q : Fin 128), i = ix2 r q := ⟨i 0, i 1, eq_ix2 i⟩
  rw [Whole.bodyR_apply]
  rfl

variable (m : (ℓ : Loc nD τ sig) → Buf (Elt Ideal) ℓ) (ρ : Dev nD → PrngReg)

/-- The reference's run, read: its composed term, cut at the aggregation, is the reference's network text applied to the
    aggregated features; so the result array is the network of the aggregated features, and the arguments are unchanged. -/
theorem run : θ_run defs (onTc (τ := τ) (main (F := Ideal))) ⟨m, fun _ => 0, ρ⟩ fun r => ∀ c : Dev nD,
      r.2.mem ((c : Thread nD τ).loc main_v90)
        = Mlp.result (aggregate (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (by
      refine Eq.trans ?_ (result_eq _ _ _ _ _ _ _ _ _ _ _ _)
      rfl), (h c).2⟩)
    (Value.run (F := Ideal) m ρ)

end Cert.ReferenceIdeal.Hand

end
-- ==== Proof.lean ====
/-
  A three-layer network on the nodes of a graph: each node's neighbour features are added up along the edges (both
  directions), joined with the node's own features, and passed through an affine map, a normalisation with scale and
  shift and tanh, a second affine map with the same, and a third affine map.

  The kernel leaves the aggregation to the host and runs the network on tiles of 4000 nodes; the reference runs it on
  all 100000 nodes at once. On the extended reals both compute, for node n, the same function of row n of the
  aggregated features, row n of the node features and the weights (`Cert.Mlp.node`): the kernel splits the first weight
  matrix into its two column halves and adds the two products, the reference multiplies the joined row by the whole
  matrix, and a sum over 256 columns is the sum over the first 128 plus the sum over the last 128. The aggregation is
  the same host text in both programs and is never opened. Nothing here needs the inputs to be finite.

  `Cert.KernelIdeal.Hand.run`: the kernel's result array is that function (the 25 blocks cover the array).
  `Cert.ReferenceIdeal.Hand.run`: so is the reference's. The frames are the generated ones; the reference, having no
  kernel, takes its frame from its run; the idealisation rewrote nothing.
-/
import proofs.«154128_j75617194213894_1_alg».proof.Defs
import proofs.«154128_j75617194213894_1_alg».proof.Proof.Gen.Kernel
import proofs.«154128_j75617194213894_1_alg».proof.Proof.Gen.Kernel.Frame
import proofs.«154128_j75617194213894_1_alg».proof.Proof.Gen.KernelIdeal
import proofs.«154128_j75617194213894_1_alg».proof.Proof.Gen.KernelIdeal.Frame
import proofs.«154128_j75617194213894_1_alg».proof.Proof.Gen.KernelIdeal.Value
import proofs.«154128_j75617194213894_1_alg».proof.Proof.Gen.ReferenceIdeal
import proofs.«154128_j75617194213894_1_alg».proof.Proof.Gen.ReferenceIdeal.Run
import proofs.«154128_j75617194213894_1_alg».proof.Proof.Gen.Pre_finite_inputs
import proofs.«154128_j75617194213894_1_alg».proof.Proof.Blocks
import proofs.«154128_j75617194213894_1_alg».proof.Proof.Ref
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs gather and add the neighbour features with the same host text. -/
theorem aggregate_eq (x : FVec Ideal Cert.KernelIdeal.S100000x128 .f32) (e : IVec Cert.KernelIdeal.S2x600000 32) :
    Cert.ReferenceIdeal.Hand.aggregate x e = Cert.KernelIdeal.Entry.aggregate x e := rfl

/-- From memories that agree on the arguments both result arrays are the network of the aggregated features. -/
theorem algebraic : Cert.algebraic_KernelIdeal_ReferenceIdeal := by
  intro m ρ m' ρ' _ hagree
  refine ⟨fun c => Cert.KernelIdeal.Hand.network m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7, h8, h9, h10, h11⟩ := hagree c
  rw [h0, h1, h2, h3, h4, h5, h6, h7, h8, h9, h10, h11, aggregate_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
